-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S128x128 .f32) (main_arg3 : FVec F S128x128 .f32) (main_arg4 : FVec F S128 .f32) (main_arg5 : FVec F S128x64 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S640000x128 : Shape := ⟨2, ![640000, 128]⟩
abbrev S100000x1 : Shape := ⟨2, ![100000, 1]⟩
abbrev S1x128 : Shape := ⟨2, ![1, 128]⟩
abbrev S2000x128 : Shape := ⟨2, ![2000, 128]⟩
abbrev S1x64 : Shape := ⟨2, ![1, 64]⟩
abbrev S100000x64 : Shape := ⟨2, ![100000, 64]⟩
abbrev S2000x64 : Shape := ⟨2, ![2000, 64]⟩

abbrev nBuf : Space → Nat
  | .hbm => 60
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S100000, .f32⟩
  | .hbm, ⟨16, _⟩ => ⟨S640000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S_, .f32⟩
  | .hbm, ⟨34, _⟩ => ⟨S100000x128, .f32⟩
  | .hbm, ⟨35, _⟩ => ⟨S640000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S640000x128, .f32⟩
  | .hbm, ⟨51, _⟩ => ⟨S_, .f32⟩
  | .hbm, ⟨52, _⟩ => ⟨S100000x128, .f32⟩
  | .hbm, ⟨53, _⟩ => ⟨S640000x1, .i32⟩
  | .hbm, ⟨54, _⟩ => ⟨S100000x128, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S1x64, .f32⟩
  | .hbm, ⟨59, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S100000, .f32⟩
  | .hbm, ⟨29, _⟩ => ⟨S640000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x128, .f32⟩
  | .hbm, ⟨55, _⟩ => ⟨S_, .f32⟩
  | .hbm, ⟨56, _⟩ => ⟨S100000x128, .f32⟩
  | .hbm, ⟨57, _⟩ => ⟨S640000x1, .i32⟩
  | .hbm, ⟨58, _⟩ => ⟨S100000x128, .f32⟩
  | .hbm, ⟨59, _⟩ => ⟨S_, .f32⟩
  | .hbm, ⟨60, _⟩ => ⟨S640000, .f32⟩
  | .hbm, ⟨61, _⟩ => ⟨S_, .f32⟩
  | .hbm, ⟨62, _⟩ => ⟨S100000, .f32⟩
  | .hbm, ⟨63, _⟩ => ⟨S640000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The kernel program's run, with the result buffer named.

  The program is four segments: host operations, the first region, host operations, the second region. Folding the
  segments over the launch memory gives the buffer contents at each boundary; the last boundary's contents are what
  every unscoped buffer of a core holds in every final state. The result buffer is the second region's output array,
  so it ends at that region's write-backs folded over the array; the argument buffers end as launched.
-/
import proofs.«141585_j71270687310162_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, and any property of the
    final memory that follows from "each core's unscoped buffers hold the last boundary's contents" holds of it: the
    four segments launched, the last thread state read against the final state. -/
theorem run_to_last {Q : PUnit × MemSt nD τ sig (Elt F) → Prop}
    (hQ : ∀ s : MemSt nD τ sig (Elt F),
      (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no core takes a ghost resource beside it
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      -- each core's unscoped buffers at the launch memory, its generator register, and nothing owed
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      -- the last thread state holds every unscoped buffer at the last boundary's contents: read them all
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- The run with the result named: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_to_last m ρ fun s h c =>
    ⟨h c _ (mem_uc main_v41 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩

end Cert.KernelIdeal.Run

end
-- ==== Proof.LibMlpAt.lean ====
/-
  The two-layer perceptron with rectifiers, read at one entry.

  For matrices x : [N, K], wa : [K, D], wb : [D, D] and one-row biases ba, bb : [1, D] the value at (r, q) is
      max (∑ j, max (∑ i, x[r,i] · wa[i,j] + ba[0,j]) 0 · wb[j,q] + bb[0,q]) 0
  on the extended reals. Two spellings of that function occur: the host's (two `dot_general`s, the biases broadcast
  along the rows, the rectifier a maximum with a broadcast zero) and a tile's (two matrix products into a zero
  accumulator with the operands narrowed to bf16 first, the biases broadcast as vectors). At the ideal values a change of
  format is the identity and both products are plain sums over the contracted coordinate, so each spelling reads the
  formula above at every entry; nothing here needs the entries to be finite.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp

open Idealize.ShloMosaic Idealize.ShloMosaic.ValueIdx

/-! ## A plain matrix product's dimension numbers, and its sum -/

/-- The dimension numbers of a plain product [m, k] × [k, n] → [m, n]: contract the left operand's axis 1 with the
    right operand's axis 0. -/
abbrev D2 {m k n : Nat} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

variable {m k n : Nat}

/-- The left operand's index at output (a, b) and contracted coordinate c is (a, c). -/
theorem lhsIdx_D2 (w : DotDims.WF ⟨2, ![m, k]⟩ ⟨2, ![k, n]⟩ ⟨2, ![m, n]⟩ [1] [0] [0] [1] [] []) (a : Fin m) (b : Fin n) (c : Fin k) :
    (D2 w).lhsIdx (ix2 a b) ((contrEquiv1 (D2 w) k rfl rfl).symm c) = ix2 a c := by
  have c2 := contrEquiv1_symm_val (D2 w) k rfl rfl c
  funext ax; apply Fin.ext
  match ax with
  | ⟨0, _⟩ => simp [DotDims.lhsIdx]; rfl
  | ⟨1, _⟩ => simp [DotDims.lhsIdx]; exact c2

/-- The right operand's index at output (a, b) and contracted coordinate c is (c, b). -/
theorem rhsIdx_D2 (w : DotDims.WF ⟨2, ![m, k]⟩ ⟨2, ![k, n]⟩ ⟨2, ![m, n]⟩ [1] [0] [0] [1] [] []) (a : Fin m) (b : Fin n) (c : Fin k) :
    (D2 w).rhsIdx (ix2 a b) ((contrEquiv1 (D2 w) k rfl rfl).symm c) = ix2 c b := by
  have c2 := contrEquiv1_symm_val (D2 w) k rfl rfl c
  funext ax; apply Fin.ext
  match ax with
  | ⟨0, _⟩ => simp [DotDims.rhsIdx]; exact c2
  | ⟨1, _⟩ => simp [DotDims.rhsIdx]; rfl

/-- The host's product at (a, b): the sum over the contracted coordinate of the entries' products. -/
theorem dotGeneral_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (D2 w) prec A B (ix2 a b) = ∑ c : Fin k, A (ix2 a c) * B (ix2 c b) := by
  show FloatOps.dotGeneral _ prec _ A B (ix2 a b) = _
  rw [Ideal.dotGeneral_apply, ← Equiv.sum_comp (contrEquiv1 (D2 w) k rfl rfl).symm]
  refine Finset.sum_congr rfl fun c _ => ?_
  rw [lhsIdx_D2, rhsIdx_D2]

/-- A tile's product into a zero accumulator at (a, b): the same sum. -/
theorem matmul_zero_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (D2 w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (D2 w) k rfl rfl).symm]
  refine Finset.sum_congr rfl fun c _ => ?_
  rw [lhsIdx_D2, rhsIdx_D2]

/-! ## Broadcasts of a one-row bias and of a scalar, at an entry -/

/-- A [1, D] row broadcast along the rows of [N, D] reads, at (r, q), the row at q. -/
theorem bcastRow_at {N D : Nat} {α : Type} (h : (⟨2, ![1, D]⟩ : Shape).BroadcastsInDim ⟨2, ![N, D]⟩ (![0, 1] : Fin 2 → Fin 2))
    (v : (⟨2, ![1, D]⟩ : Shape).Idx → α) (r : Fin N) (q : Fin D) :
    broadcastInDim ⟨2, ![N, D]⟩ (![0, 1] : Fin 2 → Fin 2) h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if D = 1 then 0 else q.val
    split
    · have := q.isLt; omega
    · rfl

/-- A scalar broadcast to [N, D] reads the scalar everywhere. -/
theorem bcastScalar_at {N D : Nat} {α : Type} (h : (⟨0, ![]⟩ : Shape).BroadcastsInDim ⟨2, ![N, D]⟩ (![] : Fin 0 → Fin 2))
    (v : (⟨0, ![]⟩ : Shape).Idx → α) (i : (⟨2, ![N, D]⟩ : Shape).Idx) :
    broadcastInDim ⟨2, ![N, D]⟩ (![] : Fin 0 → Fin 2) h v i = v ix0 :=
  broadcastInDim_apply _ h v i ix0 fun ax => ax.elim0

/-- A [D] vector viewed as its one row [1, D] is the vector broadcast along a new leading unit axis: both read the
    vector's entry i at (0, i). -/
theorem rowCast_eq_bcast {D : Nat} {α : Type} (x : (⟨1, ![D]⟩ : Shape).Idx → α) (h : (⟨1, ![D]⟩ : Shape).ShapeCasts ⟨2, ![1, D]⟩)
    (h' : (⟨1, ![D]⟩ : Shape).BroadcastsInDim ⟨2, ![1, D]⟩ (![1] : Fin 1 → Fin 2)) :
    shapeCast ⟨2, ![1, D]⟩ x h = broadcastInDim ⟨2, ![1, D]⟩ (![1] : Fin 1 → Fin 2) h' x := by
  funext j
  obtain ⟨u, i, rfl⟩ : ∃ (u : Fin 1) (i : Fin D), j = ix2 u i := ⟨j 0, j 1, eq_ix2 j⟩
  rw [shapeCast_a_1a_apply]
  refine (broadcastInDim_apply _ h' x (ix2 u i) (ix1 i) fun ax => ?_).symm
  match ax with
  | ⟨0, _⟩ =>
    show i.val = if D = 1 then 0 else i.val
    split
    · have := i.isLt; omega
    · rfl

/-! ## The perceptron at an entry -/

/-- The value at (r, q): the second layer's rectified affine map of the first layer's. -/
def mlpVal {N K D : Nat} (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) : Ideal .f32 :=
  max ((∑ j : Fin D, max ((∑ i : Fin K, x (ix2 r i) * wa (ix2 i j)) + ba (ix2 (0 : Fin 1) j)) (Ideal.ofBits .f32 0x00000000#32) * wb (ix2 j q))
    + bb (ix2 (0 : Fin 1) q)) (Ideal.ofBits .f32 0x00000000#32)

/-- The value at row r depends only on row r of x: two inputs with equal rows give equal values. -/
theorem mlpVal_congr_row {N N' K D : Nat} (x : FVec Ideal ⟨2, ![N, K]⟩ .f32) (x' : FVec Ideal ⟨2, ![N', K]⟩ .f32)
    (wa : FVec Ideal ⟨2, ![K, D]⟩ .f32) (ba : FVec Ideal ⟨2, ![1, D]⟩ .f32) (wb : FVec Ideal ⟨2, ![D, D]⟩ .f32) (bb : FVec Ideal ⟨2, ![1, D]⟩ .f32)
    (r : Fin N) (r' : Fin N') (hrow : ∀ i : Fin K, x (ix2 r i) = x' (ix2 r' i)) (q : Fin D) :
    mlpVal x wa ba wb bb r q = mlpVal x' wa ba wb bb r' q := by
  unfold mlpVal
  simp only [hrow]

/-- The host's spelling: two `dot_general`s, the biases broadcast along the rows, each rectifier a maximum with a
    broadcast zero. -/
def mlpHost {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![N, D]⟩ .f32 :=
  maximumf (addf (Host.dotGeneral (D2 wB) none
      (maximumf (addf (Host.dotGeneral (D2 wA) none x wa) (broadcastInDim ⟨2, ![N, D]⟩ (![0, 1] : Fin 2 → Fin 2) hb ba))
        (broadcastInDim ⟨2, ![N, D]⟩ (![] : Fin 0 → Fin 2) hz (constant (F := Ideal) ⟨0, ![]⟩ .f32 0x00000000#32))) wb)
      (broadcastInDim ⟨2, ![N, D]⟩ (![0, 1] : Fin 2 → Fin 2) hb bb))
    (broadcastInDim ⟨2, ![N, D]⟩ (![] : Fin 0 → Fin 2) hz (constant (F := Ideal) ⟨0, ![]⟩ .f32 0x00000000#32))

theorem mlpHost_at {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) :
    mlpHost wA wB hb hz x wa ba wb bb (ix2 r q) = mlpVal x wa ba wb bb r q := by
  unfold mlpHost mlpVal
  rw [maximumf_apply, addf_apply, dotGeneral_at, bcastRow_at, bcastScalar_at, constant_apply]
  refine congrArg (fun s => max (s + bb (ix2 (0 : Fin 1) q)) (Ideal.ofBits .f32 0x00000000#32)) ?_
  refine Finset.sum_congr rfl fun j _ => ?_
  rw [maximumf_apply, addf_apply, dotGeneral_at, bcastRow_at, bcastScalar_at, constant_apply]

/-- The host's spelling with the biases given as vectors [D], each made a row by a broadcast along a new unit axis. -/
def mlpHostV {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) : FVec Ideal ⟨2, ![N, D]⟩ .f32 :=
  mlpHost wA wB hb hz x wa (broadcastInDim ⟨2, ![1, D]⟩ (![1] : Fin 1 → Fin 2) hr ba) wb
    (broadcastInDim ⟨2, ![1, D]⟩ (![1] : Fin 1 → Fin 2) hr bb)

/-- With the biases reshaped to one row instead: the same array. -/
theorem mlpHost_rowCast {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (hc : (⟨1, ![D]⟩ : Shape).ShapeCasts ⟨2, ![1, D]⟩)
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) :
    mlpHost wA wB hb hz x wa (shapeCast ⟨2, ![1, D]⟩ ba hc) wb (shapeCast ⟨2, ![1, D]⟩ bb hc)
      = mlpHostV wA wB hb hz hr x wa ba wb bb := by
  unfold mlpHostV
  rw [rowCast_eq_bcast ba hc hr, rowCast_eq_bcast bb hc hr]

/-- A tile's spelling: the operands narrowed to bf16, two products into a zero accumulator, the biases broadcast as
    vectors, each rectifier a maximum with a splat zero. -/
def mlpTile {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![T, D]⟩ .f32 :=
  maximumf (addf (matmul (D2 wB) none
      (truncf .bf16 (maximumf (addf (matmul (D2 wA) none (truncf .bf16 x hlt) (truncf .bf16 wa hlt) (constant ⟨2, ![T, D]⟩ .f32 0x00000000#32))
          (broadcastTo ⟨2, ![T, D]⟩ ba hb)) (broadcast ⟨2, ![T, D]⟩ (Scalar.ofBits (F := Ideal) .f32 0x00000000#32))) hlt)
      (truncf .bf16 wb hlt) (constant ⟨2, ![T, D]⟩ .f32 0x00000000#32))
      (broadcastTo ⟨2, ![T, D]⟩ bb hb))
    (broadcast ⟨2, ![T, D]⟩ (Scalar.ofBits (F := Ideal) .f32 0x00000000#32))

theorem mlpTile_at {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (p : Fin T) (q : Fin D) :
    mlpTile wA wB hb hlt x wa ba wb bb (ix2 p q) = mlpVal x wa ba wb bb p q := by
  unfold mlpTile mlpVal
  rw [maximumf_apply, addf_apply, matmul_zero_at, broadcastTo_1b_ab_apply, broadcast_apply]
  refine congrArg (fun s => max (s + bb (ix2 (0 : Fin 1) q)) (Ideal.ofBits .f32 0x00000000#32)) ?_
  refine Finset.sum_congr rfl fun j _ => ?_
  rw [truncf_apply, truncf_apply, maximumf_apply, addf_apply, matmul_zero_at, broadcastTo_1b_ab_apply, broadcast_apply]
  refine congrArg (fun s => max (s + ba (ix2 (0 : Fin 1) j)) (Ideal.ofBits .f32 0x00000000#32) * wb (ix2 j q)) ?_
  refine Finset.sum_congr rfl fun i _ => ?_
  rw [truncf_apply, truncf_apply]

end Cert.Mlp

end
-- ==== Proof.Sage.lean ====
/-
  One layer of a mean-aggregating graph convolution, read at one entry.

  For a matrix of neighbour means `mean : [N, K]`, the nodes' own features `self : [N, K]`, two weight matrices
  `wl wr : [K, J]` and a one-row bias `b : [1, J]`, the layer's affine map at node r and output channel q is
      ∑ k, mean[r,k] · wl[k,q]  +  ∑ k, self[r,k] · wr[k,q]  +  b[0,q]
  on the extended reals. Two spellings of that function occur: the host's (two `dot_general`s added, the bias row
  broadcast along the nodes) and a row tile's (two matrix products into a zero accumulator with the operands narrowed
  to bf16 first, the bias row broadcast as a vector). At the ideal values a change of format is the identity and both
  products are plain sums over the contracted coordinate, so each spelling reads the formula above at every entry.

  The neighbour mean itself is the neighbour sum divided by `c = max (count, 1)`; one program divides, the other
  multiplies by the quotient `1 / c` computed once. Since `c ≥ 1` it is never zero, and off zero a quotient by c IS the
  product with c⁻¹, at the infinities too: the two means are one array, whatever the sums and the counts are.
-/
import proofs.«141585_j71270687310162_2_alg».proof.Proof.LibMlpAt
import Idealize.ShloMosaic.Lib.IdealHost

noncomputable section

open scoped BigOperators

namespace Cert.Sage

open Idealize.ShloMosaic Idealize.ShloMosaic.ValueIdx Cert.Mlp

/-! ## The affine map at an entry, and the rectifier -/

/-- The layer's affine map at node r and channel q. -/
def linAt {N K J : Nat} (mean self : FVec Ideal ⟨2, ![N, K]⟩ .f32) (wl wr : FVec Ideal ⟨2, ![K, J]⟩ .f32)
    (b : FVec Ideal ⟨2, ![1, J]⟩ .f32) (r : Fin N) (q : Fin J) : Ideal .f32 :=
  (∑ k : Fin K, mean (ix2 r k) * wl (ix2 k q)) + (∑ k : Fin K, self (ix2 r k) * wr (ix2 k q)) + b (ix2 (0 : Fin 1) q)

/-- The layer's affine map as an array over the nodes and channels. -/
def lin {N K J : Nat} (mean self : FVec Ideal ⟨2, ![N, K]⟩ .f32) (wl wr : FVec Ideal ⟨2, ![K, J]⟩ .f32)
    (b : FVec Ideal ⟨2, ![1, J]⟩ .f32) : FVec Ideal ⟨2, ![N, J]⟩ .f32 :=
  fun i => linAt mean self wl wr b (i 0) (i 1)

/-- The rectifier, entry by entry: the maximum with zero. -/
def relu {s : Shape} (y : FVec Ideal s .f32) : FVec Ideal s .f32 :=
  fun i => max (y i) (Ideal.ofBits .f32 0x00000000#32)

theorem lin_ix2 {N K J : Nat} (mean self : FVec Ideal ⟨2, ![N, K]⟩ .f32) (wl wr : FVec Ideal ⟨2, ![K, J]⟩ .f32)
    (b : FVec Ideal ⟨2, ![1, J]⟩ .f32) (r : Fin N) (q : Fin J) :
    lin mean self wl wr b (ix2 r q) = linAt mean self wl wr b r q := rfl

/-- The affine map at node r reads only row r of the means and of the own features: two pairs of arrays with equal
    rows give equal values. -/
theorem linAt_congr_rows {N N' K J : Nat} (mean self : FVec Ideal ⟨2, ![N, K]⟩ .f32) (mean' self' : FVec Ideal ⟨2, ![N', K]⟩ .f32)
    (wl wr : FVec Ideal ⟨2, ![K, J]⟩ .f32) (b : FVec Ideal ⟨2, ![1, J]⟩ .f32) (r : Fin N) (r' : Fin N')
    (hm : ∀ k : Fin K, mean (ix2 r k) = mean' (ix2 r' k)) (hs : ∀ k : Fin K, self (ix2 r k) = self' (ix2 r' k)) (q : Fin J) :
    linAt mean self wl wr b r q = linAt mean' self' wl wr b r' q := by
  unfold linAt
  simp only [hm, hs]

/-! ## The host's spelling -/

/-- Two `dot_general`s added and the bias row broadcast along the nodes: the affine map. -/
theorem linHost_eq {N K J : Nat} (wd : DotDims.WF ⟨2, ![N, K]⟩ ⟨2, ![K, J]⟩ ⟨2, ![N, J]⟩ [1] [0] [0] [1] [] [])
    (hb : (⟨2, ![1, J]⟩ : Shape).BroadcastsInDim ⟨2, ![N, J]⟩ (![0, 1] : Fin 2 → Fin 2))
    (mean self : FVec Ideal ⟨2, ![N, K]⟩ .f32) (wl wr : FVec Ideal ⟨2, ![K, J]⟩ .f32) (b : FVec Ideal ⟨2, ![1, J]⟩ .f32) :
    addf (addf (Host.dotGeneral (D2 wd) none mean wl) (Host.dotGeneral (D2 wd) none self wr))
        (broadcastInDim ⟨2, ![N, J]⟩ (![0, 1] : Fin 2 → Fin 2) hb b)
      = lin mean self wl wr b := by
  funext i
  obtain ⟨r, q, rfl⟩ : ∃ (r : Fin N) (q : Fin J), i = ix2 r q := ⟨i 0, i 1, eq_ix2 i⟩
  rw [addf_apply, addf_apply, dotGeneral_at, dotGeneral_at, bcastRow_at, lin_ix2]
  rfl

/-- The host's rectifier, a maximum with a broadcast zero. -/
theorem reluHost_eq {N J : Nat} (hz : (⟨0, ![]⟩ : Shape).BroadcastsInDim ⟨2, ![N, J]⟩ (![] : Fin 0 → Fin 2))
    (y : FVec Ideal ⟨2, ![N, J]⟩ .f32) :
    maximumf y (broadcastInDim ⟨2, ![N, J]⟩ (![] : Fin 0 → Fin 2) hz (constant (F := Ideal) ⟨0, ![]⟩ .f32 0x00000000#32))
      = relu y := by
  funext i
  rw [maximumf_apply, bcastScalar_at, constant_apply]
  rfl

/-! ## A row tile's spelling -/

/-- On a tile of T rows: the operands narrowed to bf16, two products into a zero accumulator added, the bias row
    broadcast as a vector. At (p, q) it is the affine map of the tile's rows. -/
theorem linTile_at {T K J : Nat} (wd : DotDims.WF ⟨2, ![T, K]⟩ ⟨2, ![K, J]⟩ ⟨2, ![T, J]⟩ [1] [0] [0] [1] [] [])
    (hb : (⟨2, ![1, J]⟩ : Shape).Broadcasts ⟨2, ![T, J]⟩) (hlt : FTy.bf16.bits < FTy.f32.bits)
    (x0 x1 : FVec Ideal ⟨2, ![T, K]⟩ .f32) (x2 x3 : FVec Ideal ⟨2, ![K, J]⟩ .f32) (x4 : FVec Ideal ⟨2, ![1, J]⟩ .f32)
    (p : Fin T) (q : Fin J) :
    addf (addf (matmul (D2 wd) none (truncf .bf16 x0 hlt) (truncf .bf16 x2 hlt) (constant ⟨2, ![T, J]⟩ .f32 0x00000000#32))
          (matmul (D2 wd) none (truncf .bf16 x1 hlt) (truncf .bf16 x3 hlt) (constant ⟨2, ![T, J]⟩ .f32 0x00000000#32)))
        (broadcastTo ⟨2, ![T, J]⟩ x4 hb) (ix2 p q)
      = linAt x0 x1 x2 x3 x4 p q := by
  rw [addf_apply, addf_apply, matmul_zero_at, matmul_zero_at, broadcastTo_1b_ab_apply]
  simp only [truncf_apply]
  rfl

/-! ## The two spellings of the neighbour mean -/

/-- Off zero the quotient by c is the product with the quotient of one by c: with c a maximum with one, always. -/
theorem mul_one_div_max (a cnt : EReal) :
    a * Ideal.div 1 (max cnt 1) = Ideal.div a (max cnt 1) := by
  have hc : max cnt 1 ≠ 0 := ne_of_gt (lt_of_lt_of_le zero_lt_one (le_max_right cnt 1))
  rw [Ideal.div, Ideal.div, if_neg hc, if_neg hc, one_mul]

/-- A scalar broadcast to a vector [N] reads the scalar everywhere. -/
theorem bcastScalar1_at {N : Nat} {α : Type} (h : (⟨0, ![]⟩ : Shape).BroadcastsInDim ⟨1, ![N]⟩ (![] : Fin 0 → Fin 1))
    (v : (⟨0, ![]⟩ : Shape).Idx → α) (i : (⟨1, ![N]⟩ : Shape).Idx) :
    broadcastInDim ⟨1, ![N]⟩ (![] : Fin 0 → Fin 1) h v i = v ix0 :=
  broadcastInDim_apply _ h v i ix0 fun ax => ax.elim0

/-- A vector [N] made a column [N, 1] and then broadcast along the channels of [N, K] reads, at (r, q), the vector at r. -/
theorem bcastCol_at {N K : Nat} {α : Type} (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2))
    (v : (⟨1, ![N]⟩ : Shape).Idx → α) (r : Fin N) (q : Fin K) :
    broadcastInDim ⟨2, ![N, K]⟩ (![0, 1] : Fin 2 → Fin 2) h2 (broadcastInDim ⟨2, ![N, 1]⟩ (![0] : Fin 1 → Fin 2) h1 v) (ix2 r q)
      = v (ix1 r) := by
  refine (broadcastInDim_apply _ h2 _ (ix2 r q) (ix2 r (0 : Fin 1)) fun ax => ?_).trans
    (broadcastInDim_apply _ h1 v (ix2 r (0 : Fin 1)) (ix1 r) fun ax => ?_)
  · match ax with
    | ⟨0, _⟩ =>
      show r.val = if N = 1 then 0 else r.val
      split
      · have := r.isLt; omega
      · rfl
    | ⟨1, _⟩ => rfl
  · match ax with
    | ⟨0, _⟩ =>
      show r.val = if N = 1 then 0 else r.val
      split
      · have := r.isLt; omega
      · rfl

/-- The neighbour sums times the column of quotients 1 / max (count, 1), and the neighbour sums divided by the column
    of max (count, 1): one array. -/
theorem mean_eq {N K : Nat} (hs : (⟨0, ![]⟩ : Shape).BroadcastsInDim ⟨1, ![N]⟩ (![] : Fin 0 → Fin 1))
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2))
    (sums : FVec Ideal ⟨2, ![N, K]⟩ .f32) (count : FVec Ideal ⟨1, ![N]⟩ .f32) :
    mulf sums (broadcastInDim ⟨2, ![N, K]⟩ (![0, 1] : Fin 2 → Fin 2) h2 (broadcastInDim ⟨2, ![N, 1]⟩ (![0] : Fin 1 → Fin 2) h1
        (Host.divf (broadcastInDim ⟨1, ![N]⟩ (![] : Fin 0 → Fin 1) hs (constant (F := Ideal) ⟨0, ![]⟩ .f32 0x3F800000#32))
          (maximumf count (broadcastInDim ⟨1, ![N]⟩ (![] : Fin 0 → Fin 1) hs (constant (F := Ideal) ⟨0, ![]⟩ .f32 0x3F800000#32))))))
      = Host.divf sums (broadcastInDim ⟨2, ![N, K]⟩ (![0, 1] : Fin 2 → Fin 2) h2 (broadcastInDim ⟨2, ![N, 1]⟩ (![0] : Fin 1 → Fin 2) h1
          (maximumf count (broadcastInDim ⟨1, ![N]⟩ (![] : Fin 0 → Fin 1) hs (constant (F := Ideal) ⟨0, ![]⟩ .f32 0x3F800000#32))))) := by
  funext i
  obtain ⟨r, q, rfl⟩ : ∃ (r : Fin N) (q : Fin K), i = ix2 r q := ⟨i 0, i 1, eq_ix2 i⟩
  rw [mulf_apply, bcastCol_at]
  show sums (ix2 r q) * Ideal.div _ _ = Ideal.div (sums (ix2 r q)) _
  rw [bcastCol_at, maximumf_apply, bcastScalar1_at, constant_apply, Ideal.ofBits_one_f32]
  exact mul_one_div_max _ _

end Cert.Sage

end
-- ==== Proof.Tile.lean ====
/-
  What one grid point's body computes, read at an entry of its row tile.

  Each of the two kernels loads a tile of 2000 rows of the neighbour means and of the nodes' own features, both
  weight matrices and the bias row, and stores the layer's affine map of those rows: the first kernel rectified
  (a maximum with zero), the second as it is. So the stored tile at (p, q) is the affine map of row p of the loaded
  tiles at channel q.
-/
import proofs.«141585_j71270687310162_2_alg».proof.Proof.Gen.KernelIdeal.Skeleton
import proofs.«141585_j71270687310162_2_alg».proof.Proof.Sage

noncomputable section

namespace Cert.KernelIdeal.Tile

open Idealize.ShloMosaic Idealize.ShloMosaic.ValueIdx Cert.KernelIdeal Cert.KernelIdeal.Gen Cert.Sage

/-- The first kernel's stored tile at (p, q): the rectified affine map of row p. -/
theorem pay0_at (x0 x1 : Vec Ideal S2000x128 .f32) (x2 x3 : Vec Ideal S128x128 .f32) (x4 : Vec Ideal S1x128 .f32)
    (p : Fin 2000) (q : Fin 128) :
    k0_pay1 (F := Ideal) x0 x1 x2 x3 x4 (ix2 p q) = max (linAt x0 x1 x2 x3 x4 p q) (Ideal.ofBits .f32 0x00000000#32) := by
  unfold k0_pay1
  rw [maximumf_apply, broadcast_apply, shapeCast_self, shapeCast_self]
  exact congrArg (fun s => max s (Ideal.ofBits .f32 0x00000000#32))
    (linTile_at Facts₀.dot_S2000x128_S128x128_S2000x128_1_0_0_1_n_n_wf Facts₀.broadcasts_S1x128_S2000x128 Facts₀.bitsLt_bf16_f32 x0 x1 x2 x3 x4 p q)

/-- The second kernel's stored tile at (p, q): the affine map of row p. -/
theorem pay1_at (x0 x1 : Vec Ideal S2000x128 .f32) (x2 x3 : Vec Ideal S128x64 .f32) (x4 : Vec Ideal S1x64 .f32)
    (p : Fin 2000) (q : Fin 64) :
    k1_pay1 (F := Ideal) x0 x1 x2 x3 x4 (ix2 p q) = linAt x0 x1 x2 x3 x4 p q := by
  unfold k1_pay1
  rw [shapeCast_self, shapeCast_self, shapeCast_self]
  exact linTile_at Facts₀.dot_S2000x128_S128x64_S2000x64_1_0_0_1_n_n_wf Facts₀.broadcasts_S1x64_S2000x64 Facts₀.bitsLt_bf16_f32 x0 x1 x2 x3 x4 p q

end Cert.KernelIdeal.Tile

end
-- ==== Proof.Hidden.lean ====
/-
  The first region's output array, whole.

  The region walks 50 grid points; point t loads rows 2000·t … 2000·t + 1999 of the neighbour means and of the
  nodes' own features, the two weight matrices and the bias row whole, and writes back rows 2000·t … 2000·t + 1999
  of its output. What it writes is the rectified affine map of the loaded rows, and the affine map at a node reads
  only that node's row: so the block written at t is block t of ONE array — the rectified affine map of the whole
  input arrays as the region finds them — and the 50 blocks tile the 100000 rows.
-/
import proofs.«141585_j71270687310162_2_alg».proof.Proof.Gen.KernelIdeal.Frame
import proofs.«141585_j71270687310162_2_alg».proof.Proof.Tile
import Idealize.ShloMosaic.Lib.Pipeline.Value

noncomputable section

namespace Cert.KernelIdeal.Hidden

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The rectified affine map of the arrays the region finds: neighbour means, own features, weights, bias row. -/
def layer (c : Dev nD) : S100000x128.Idx → Ideal .f32 :=
  relu (lin (N := 100000) (K := 128) (J := 128) (V c main_v24) (V c main_arg0) (V c main_arg2) (V c main_arg3) (V c main_v25))

/-- The printed index maps over the 50 points: the row windows and the output sit at block row t, the weights and the
    bias at the origin. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The blocks the point loads, read off the arrays -/

/-- Row p of the means' block at t is row 2000·t + p of the means. -/
theorem means_row (c : Dev nD) (t : Fin cfg0.N) (p : Fin 2000) (k : Fin 128) (row : Fin 100000) (hrow : row.val = t.val * 2000 + p.val) :
    iblk0 V c 0 t (ix2 p k) = V c main_v24 (ix2 row k) := by
  obtain ⟨e0, e1, -⟩ := index_maps t
  show V c main_v24 (((cfg0.win 0).blk t).view.emb (ix2 p k)) = V c main_v24 (ix2 row k)
  refine congrArg (V c main_v24) (funext fun a => Fin.ext ?_)
  match a with
  | ⟨0, _⟩ => show win0_0.index t (0 : Fin 2) * 2000 + 1 * p.val = row.val; omega
  | ⟨1, _⟩ => show win0_0.index t (1 : Fin 2) * 128 + 1 * k.val = k.val; omega

/-- Row p of the own features' block at t is row 2000·t + p of the features. -/
theorem own_row (c : Dev nD) (t : Fin cfg0.N) (p : Fin 2000) (k : Fin 128) (row : Fin 100000) (hrow : row.val = t.val * 2000 + p.val) :
    iblk0 V c 1 t (ix2 p k) = V c main_arg0 (ix2 row k) := by
  obtain ⟨-, -, e0, e1, -⟩ := index_maps t
  show V c main_arg0 (((cfg0.win 1).blk t).view.emb (ix2 p k)) = V c main_arg0 (ix2 row k)
  refine congrArg (V c main_arg0) (funext fun a => Fin.ext ?_)
  match a with
  | ⟨0, _⟩ => show win0_1.index t (0 : Fin 2) * 2000 + 1 * p.val = row.val; omega
  | ⟨1, _⟩ => show win0_1.index t (1 : Fin 2) * 128 + 1 * k.val = k.val; omega

/-- The left weights' block is the whole matrix. -/
theorem wl_whole (c : Dev nD) (t : Fin cfg0.N) : iblk0 V c 2 t = V c main_arg2 := by
  obtain ⟨-, -, -, -, e0, e1, -⟩ := index_maps t
  funext y
  show V c main_arg2 (((cfg0.win 2).blk t).view.emb y) = V c main_arg2 y
  refine congrArg (V c main_arg2) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The right weights' block is the whole matrix. -/
theorem wr_whole (c : Dev nD) (t : Fin cfg0.N) : iblk0 V c 3 t = V c main_arg3 := by
  obtain ⟨-, -, -, -, -, -, e0, e1, -⟩ := index_maps t
  funext y
  show V c main_arg3 (((cfg0.win 3).blk t).view.emb y) = V c main_arg3 y
  refine congrArg (V c main_arg3) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The bias window's block is the whole row. -/
theorem bias_whole (c : Dev nD) (t : Fin cfg0.N) : iblk0 V c 4 t = V c main_v25 := by
  obtain ⟨-, -, -, -, -, -, -, -, e0, e1, -⟩ := index_maps t
  funext y
  show V c main_v25 (((cfg0.win 4).blk t).view.emb y) = V c main_v25 y
  refine congrArg (V c main_v25) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-! ## What point t writes back is block t of the layer -/

theorem flushed_eq (c : Dev nD) (t : Fin cfg0.N) :
    (dat0 V c).flushed 5 t = ((cfg0.win 5).blk t).view.read (Elt Ideal) (layer V c) := by
  show (cfg0.win 5).cut (grid0.coords t) ((dat0 V c).after 5 t) = _
  rw [after0_5]
  unfold out0_5
  rw [View.canon_unit_zero origin]
  simp only [View.ld_unit_zero (S := S2000x128) origin, View.ld_unit_zero (S := S128x128) origin, View.ld_unit_zero (S := S1x128) origin]
  have hN : cfg0.N = 50 := N_0
  have ht : t.val < 50 := lt_of_lt_of_eq t.isLt hN
  obtain ⟨-, -, -, -, -, -, -, -, -, -, e0, e1⟩ := index_maps t
  funext j
  obtain ⟨p, q, rfl⟩ : ∃ (p : Fin 2000) (q : Fin 128), j = ix2 p q := ⟨j 0, j 1, eq_ix2 j⟩
  have hp : p.val < 2000 := p.isLt
  let row : Fin 100000 := ⟨t.val * 2000 + p.val, by omega⟩
  have hemb : ((cfg0.win 5).blk t).view.emb (ix2 p q) = ix2 row q := by
    funext a; apply Fin.ext
    match a with
    | ⟨0, _⟩ => show win0_5.index t (0 : Fin 2) * 2000 + 1 * p.val = t.val * 2000 + p.val; omega
    | ⟨1, _⟩ => show win0_5.index t (1 : Fin 2) * 128 + 1 * q.val = q.val; omega
  show k0_pay1 (F := Ideal) (iblk0 V c 0 t) (iblk0 V c 1 t) (iblk0 V c 2 t) (iblk0 V c 3 t) (iblk0 V c 4 t) (ix2 p q)
      = layer V c (((cfg0.win 5).blk t).view.emb (ix2 p q))
  rw [hemb, wl_whole V c t, wr_whole V c t, bias_whole V c t]
  refine (Tile.pay0_at _ _ _ _ _ p q).trans ?_
  refine congrArg (fun s => max s (Ideal.ofBits .f32 0x00000000#32)) ?_
  exact linAt_congr_rows _ _ _ _ _ _ _ p row (fun k => means_row V c t p k row rfl) (fun k => own_row V c t p k row rfl) q

/-! ## The blocks tile the array -/

/-- An index is in point t's block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v26).slice (win0_5.rect t)).set ↔ _
  rw [View.set_slice_whole, Rect.mem_set_unit]
  exact Iff.rfl

/-- Row r lies in the block of point r / 2000. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  let t : Fin cfg0.N := ⟨(i 0).val / 2000, lt_of_lt_of_eq (by omega : (i 0).val / 2000 < 50) hN.symm⟩
  have htv : t.val = (i 0).val / 2000 := rfl
  obtain ⟨-, -, -, -, -, -, -, -, -, -, e0, e1⟩ := index_maps t
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- THE ARRAY the first region leaves: the rectified affine map of the arrays it found. -/
theorem final (c : Dev nD) : (dat0 V c).arrAt 5 cfg0.N = layer V c :=
  (dat0 V c).arrAt_eq_of_cover 5 (layer V c) (fun t _ => flushed_eq V c t) cover

end Cert.KernelIdeal.Hidden

end
-- ==== Proof.Output.lean ====
/-
  The second region's output array, whole.

  As in the first region, point t of 50 loads rows 2000·t … 2000·t + 1999 of the neighbour means (of the hidden
  features) and of the hidden features themselves, the two [128, 64] weight matrices and the bias row whole, and
  writes back rows 2000·t … 2000·t + 1999 of the result: the affine map of the loaded rows, not rectified. The affine
  map at a node reads only that node's row, so the block written at t is block t of the affine map of the whole arrays
  as the region finds them, and the 50 blocks tile the 100000 rows.
-/
import proofs.«141585_j71270687310162_2_alg».proof.Proof.Gen.KernelIdeal.Frame
import proofs.«141585_j71270687310162_2_alg».proof.Proof.Tile
import Idealize.ShloMosaic.Lib.Pipeline.Value

noncomputable section

namespace Cert.KernelIdeal.Output

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The affine map of the arrays the region finds: neighbour means, hidden features, weights, bias row. -/
def layer (c : Dev nD) : S100000x64.Idx → Ideal .f32 :=
  lin (N := 100000) (K := 128) (J := 64) (V c main_v39) (V c main_v26) (V c main_arg5) (V c main_arg6) (V c main_v40)

/-- The printed index maps over the 50 points: the row windows and the output sit at block row t, the weights and the
    bias at the origin. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## The blocks the point loads, read off the arrays -/

/-- Row p of the means' block at t is row 2000·t + p of the means. -/
theorem means_row (c : Dev nD) (t : Fin cfg1.N) (p : Fin 2000) (k : Fin 128) (row : Fin 100000) (hrow : row.val = t.val * 2000 + p.val) :
    iblk1 V c 0 t (ix2 p k) = V c main_v39 (ix2 row k) := by
  obtain ⟨e0, e1, -⟩ := index_maps t
  show V c main_v39 (((cfg1.win 0).blk t).view.emb (ix2 p k)) = V c main_v39 (ix2 row k)
  refine congrArg (V c main_v39) (funext fun a => Fin.ext ?_)
  match a with
  | ⟨0, _⟩ => show win1_0.index t (0 : Fin 2) * 2000 + 1 * p.val = row.val; omega
  | ⟨1, _⟩ => show win1_0.index t (1 : Fin 2) * 128 + 1 * k.val = k.val; omega

/-- Row p of the hidden features' block at t is row 2000·t + p of the hidden features. -/
theorem own_row (c : Dev nD) (t : Fin cfg1.N) (p : Fin 2000) (k : Fin 128) (row : Fin 100000) (hrow : row.val = t.val * 2000 + p.val) :
    iblk1 V c 1 t (ix2 p k) = V c main_v26 (ix2 row k) := by
  obtain ⟨-, -, e0, e1, -⟩ := index_maps t
  show V c main_v26 (((cfg1.win 1).blk t).view.emb (ix2 p k)) = V c main_v26 (ix2 row k)
  refine congrArg (V c main_v26) (funext fun a => Fin.ext ?_)
  match a with
  | ⟨0, _⟩ => show win1_1.index t (0 : Fin 2) * 2000 + 1 * p.val = row.val; omega
  | ⟨1, _⟩ => show win1_1.index t (1 : Fin 2) * 128 + 1 * k.val = k.val; omega

/-- The left weights' block is the whole matrix. -/
theorem wl_whole (c : Dev nD) (t : Fin cfg1.N) : iblk1 V c 2 t = V c main_arg5 := by
  obtain ⟨-, -, -, -, e0, e1, -⟩ := index_maps t
  funext y
  show V c main_arg5 (((cfg1.win 2).blk t).view.emb y) = V c main_arg5 y
  refine congrArg (V c main_arg5) (funext fun a => Fin.ext ?_)
  match a with
  | ⟨0, _⟩ => show win1_2.index t (0 : Fin 2) * 128 + 1 * (y 0).val = (y 0).val; omega
  | ⟨1, _⟩ => show win1_2.index t (1 : Fin 2) * 64 + 1 * (y 1).val = (y 1).val; omega

/-- The right weights' block is the whole matrix. -/
theorem wr_whole (c : Dev nD) (t : Fin cfg1.N) : iblk1 V c 3 t = V c main_arg6 := by
  obtain ⟨-, -, -, -, -, -, e0, e1, -⟩ := index_maps t
  funext y
  show V c main_arg6 (((cfg1.win 3).blk t).view.emb y) = V c main_arg6 y
  refine congrArg (V c main_arg6) (funext fun a => Fin.ext ?_)
  match a with
  | ⟨0, _⟩ => show win1_3.index t (0 : Fin 2) * 128 + 1 * (y 0).val = (y 0).val; omega
  | ⟨1, _⟩ => show win1_3.index t (1 : Fin 2) * 64 + 1 * (y 1).val = (y 1).val; omega

/-- The bias window's block is the whole row. -/
theorem bias_whole (c : Dev nD) (t : Fin cfg1.N) : iblk1 V c 4 t = V c main_v40 := by
  obtain ⟨-, -, -, -, -, -, -, -, e0, e1, -⟩ := index_maps t
  funext y
  show V c main_v40 (((cfg1.win 4).blk t).view.emb y) = V c main_v40 y
  refine congrArg (V c main_v40) (funext fun a => Fin.ext ?_)
  match a with
  | ⟨0, _⟩ => show win1_4.index t (0 : Fin 2) * 1 + 1 * (y 0).val = (y 0).val; omega
  | ⟨1, _⟩ => show win1_4.index t (1 : Fin 2) * 64 + 1 * (y 1).val = (y 1).val; omega

/-! ## What point t writes back is block t of the layer -/

theorem flushed_eq (c : Dev nD) (t : Fin cfg1.N) :
    (dat1 V c).flushed 5 t = ((cfg1.win 5).blk t).view.read (Elt Ideal) (layer V c) := by
  show (cfg1.win 5).cut (grid1.coords t) ((dat1 V c).after 5 t) = _
  rw [after1_5]
  unfold out1_5
  rw [View.canon_unit_zero origin]
  simp only [View.ld_unit_zero (S := S2000x128) origin, View.ld_unit_zero (S := S128x64) origin, View.ld_unit_zero (S := S1x64) origin]
  have hN : cfg1.N = 50 := N_1
  have ht : t.val < 50 := lt_of_lt_of_eq t.isLt hN
  obtain ⟨-, -, -, -, -, -, -, -, -, -, e0, e1⟩ := index_maps t
  funext j
  obtain ⟨p, q, rfl⟩ : ∃ (p : Fin 2000) (q : Fin 64), j = ix2 p q := ⟨j 0, j 1, eq_ix2 j⟩
  have hp : p.val < 2000 := p.isLt
  let row : Fin 100000 := ⟨t.val * 2000 + p.val, by omega⟩
  have hemb : ((cfg1.win 5).blk t).view.emb (ix2 p q) = ix2 row q := by
    funext a; apply Fin.ext
    match a with
    | ⟨0, _⟩ => show win1_5.index t (0 : Fin 2) * 2000 + 1 * p.val = t.val * 2000 + p.val; omega
    | ⟨1, _⟩ => show win1_5.index t (1 : Fin 2) * 64 + 1 * q.val = q.val; omega
  show k1_pay1 (F := Ideal) (iblk1 V c 0 t) (iblk1 V c 1 t) (iblk1 V c 2 t) (iblk1 V c 3 t) (iblk1 V c 4 t) (ix2 p q)
      = layer V c (((cfg1.win 5).blk t).view.emb (ix2 p q))
  rw [hemb, wl_whole V c t, wr_whole V c t, bias_whole V c t]
  refine (Tile.pay1_at _ _ _ _ _ p q).trans ?_
  exact linAt_congr_rows _ _ _ _ _ _ _ p row (fun k => means_row V c t p k row rfl) (fun k => own_row V c t p k row rfl) q

/-! ## The blocks tile the array -/

/-- An index is in point t's block iff each coordinate is in the block's range on its axis. -/
theorem mem_blk (t : Fin cfg1.N) (i : S100000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v41).slice (win1_5.rect t)).set ↔ _
  rw [View.set_slice_whole, Rect.mem_set_unit]
  exact Iff.rfl

/-- Row r lies in the block of point r / 2000. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 50 := N_1
  let t : Fin cfg1.N := ⟨(i 0).val / 2000, lt_of_lt_of_eq (by omega : (i 0).val / 2000 < 50) hN.symm⟩
  have htv : t.val = (i 0).val / 2000 := rfl
  obtain ⟨-, -, -, -, -, -, -, -, -, -, e0, e1⟩ := index_maps t
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 64 ≤ (i 1).val ∧ (i 1).val < win1_5.index t (1 : Fin 2) * 64 + 64; omega

/-- THE ARRAY the second region leaves: the affine map of the arrays it found. -/
theorem final (c : Dev nD) : (dat1 V c).arrAt 5 cfg1.N = layer V c :=
  (dat1 V c).arrAt_eq_of_cover 5 (layer V c) (fun t _ => flushed_eq V c t) cover

end Cert.KernelIdeal.Output

end
-- ==== Proof.KernelValue.lean ====
/-
  The kernel program's result as one function of its argument arrays.

  Between the launch and the return the program's buffers pass through four boundaries: after the first host
  operations (the edge lists sliced out, the in-degree counts and their reciprocals, the neighbour sums of the input
  features scaled by the reciprocals), after the first region (its output array the rectified first layer), after the
  second host operations (the neighbour sums of the hidden features scaled by the same reciprocals), and after the
  second region (its output array the second layer). Reading each boundary's arrays in turn gives the result:
      hidden = relu (lin (means x) x W1l W1r b1)      result = lin (means hidden) hidden W2l W2r b2
  where `means h` is the neighbour sum of h times the column of reciprocals of max (count, 1).
-/
import proofs.«141585_j71270687310162_2_alg».proof.Proof.Hidden
import proofs.«141585_j71270687310162_2_alg».proof.Proof.Output
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.StableHlo Cert.Sage

/-! ## The host side's arrays, as functions of the arguments -/

/-- The edges' source nodes: row 0 of the edge list. -/
def srcRow (e : (⟨S2x640000, .i32⟩ : BufTy).Contents (Elt Ideal)) : (⟨S640000, .i32⟩ : BufTy).Contents (Elt Ideal) :=
  shapeCast S640000 (extractStridedSlice S1x640000 ![0, 0] e Facts₀.slices_S2x640000_S1x640000_0_0) Facts₀.shapeCasts_S1x640000_S640000

/-- The edges' destination nodes: row 1 of the edge list. -/
def dstRow (e : (⟨S2x640000, .i32⟩ : BufTy).Contents (Elt Ideal)) : (⟨S640000, .i32⟩ : BufTy).Contents (Elt Ideal) :=
  shapeCast S640000 (extractStridedSlice S1x640000 ![1, 0] e Facts₀.slices_S2x640000_S1x640000_1_0) Facts₀.shapeCasts_S1x640000_S640000

/-- Each node's in-degree: a one scattered to every edge's destination. -/
def count (dst : (⟨S640000, .i32⟩ : BufTy).Contents (Elt Ideal)) : FVec Ideal S100000 .f32 :=
  Host.scatterAdd scatter_S100000_S640000x1_S640000_n_0_0_1
    (broadcastInDim S100000 ![] Facts₀.bcast_S_S100000 (constant (F := Ideal) S_ .f32 0x00000000#32))
    (broadcastInDim S640000x1 ![0] Facts₀.bcast_S640000_S640000x1_0 dst)
    (broadcastInDim S640000 ![] Facts₀.bcast_S_S640000 (constant (F := Ideal) S_ .f32 0x3F800000#32))

/-- The reciprocal of each node's in-degree, the degree raised to one where it is less. -/
def recip (dst : (⟨S640000, .i32⟩ : BufTy).Contents (Elt Ideal)) : FVec Ideal S100000 .f32 :=
  Host.divf (broadcastInDim S100000 ![] Facts₀.bcast_S_S100000 (constant (F := Ideal) S_ .f32 0x3F800000#32))
    (maximumf (count dst) (broadcastInDim S100000 ![] Facts₀.bcast_S_S100000 (constant (F := Ideal) S_ .f32 0x3F800000#32)))

/-- The sum over each node's incoming edges of the source node's feature row (a negative source index wrapped around). -/
def sums (src dst : (⟨S640000, .i32⟩ : BufTy).Contents (Elt Ideal)) (h : FVec Ideal S100000x128 .f32) : FVec Ideal S100000x128 .f32 :=
  Host.scatterAdd scatter_S100000x128_S640000x1_S640000x128_1_0_0_1
    (broadcastInDim S100000x128 ![] Facts₀.bcast_S_S100000x128 (constant (F := Ideal) S_ .f32 0x00000000#32))
    (broadcastInDim S640000x1 ![0] Facts₀.bcast_S640000_S640000x1_0 dst)
    (Host.gather gather_S100000x128_S640000x1_S640000x128_1_0_n_n_0_1_1128 h
      (broadcastInDim S640000x1 ![0] Facts₀.bcast_S640000_S640000x1_0
        (select (cmpi .slt src (broadcastInDim S640000 ![] Facts₀.bcast_S_S640000 (constantI S_ 32 0#32)))
          (addi src (broadcastInDim S640000 ![] Facts₀.bcast_S_S640000 (constantI S_ 32 100000#32))) src)))

/-- The neighbour means as the kernel program computes them: the sums times the column `rc`. -/
def means (src dst : (⟨S640000, .i32⟩ : BufTy).Contents (Elt Ideal)) (rc : FVec Ideal S100000 .f32) (h : FVec Ideal S100000x128 .f32) :
    FVec Ideal S100000x128 .f32 :=
  mulf (sums src dst h) (broadcastInDim S100000x128 ![0, 1] Facts₀.bcast_S100000x1_S100000x128_0_1
    (broadcastInDim S100000x1 ![0] Facts₀.bcast_S100000_S100000x1_0 rc))

/-- The first layer's output over the argument arrays. -/
def hiddenOf (x : FVec Ideal S100000x128 .f32) (e : (⟨S2x640000, .i32⟩ : BufTy).Contents (Elt Ideal))
    (w1l w1r : FVec Ideal S128x128 .f32) (b1 : FVec Ideal S128 .f32) : FVec Ideal S100000x128 .f32 :=
  relu (lin (N := 100000) (K := 128) (J := 128) (means (srcRow e) (dstRow e) (recip (dstRow e)) x) x w1l w1r
    (shapeCast S1x128 b1 Facts₀.shapeCasts_S128_S1x128))

/-- The program's result over the argument arrays. -/
def resultOf (x : FVec Ideal S100000x128 .f32) (e : (⟨S2x640000, .i32⟩ : BufTy).Contents (Elt Ideal))
    (w1l w1r : FVec Ideal S128x128 .f32) (b1 : FVec Ideal S128 .f32) (w2l w2r : FVec Ideal S128x64 .f32) (b2 : FVec Ideal S64 .f32) :
    FVec Ideal S100000x64 .f32 :=
  lin (N := 100000) (K := 128) (J := 64) (means (srcRow e) (dstRow e) (recip (dstRow e)) (hiddenOf x e w1l w1r b1)) (hiddenOf x e w1l w1r b1)
    w2l w2r (shapeCast S1x64 b2 Facts₀.shapeCasts_S64_S1x64)

variable (m : (ℓ : Loc nD τ sig) → Buf (Elt Ideal) ℓ) (ρ : Dev nD → PrngReg)

/-! ## The first region's entry: after the first host operations -/

set_option maxHeartbeats 8000000 in
set_option maxRecDepth 8192 in
theorem entry0_means (c : Dev nD) :
    (V1 m ρ c main_v24 : S100000x128.Idx → Ideal .f32)
      = means (srcRow (m ((c : Thread nD τ).loc main_arg1))) (dstRow (m ((c : Thread nD τ).loc main_arg1)))
          (recip (dstRow (m ((c : Thread nD τ).loc main_arg1)))) (m ((c : Thread nD τ).loc main_arg0)) := by
  dsimp only [V1, W1, hostOps0]
  after_results_simp <;> rfl

theorem entry0_own (c : Dev nD) : (V1 m ρ c main_arg0 : S100000x128.Idx → Ideal .f32) = m ((c : Thread nD τ).loc main_arg0) := by
  dsimp only [V1, W1, hostOps0]
  after_results_simp <;> rfl

theorem entry0_wl (c : Dev nD) : (V1 m ρ c main_arg2 : S128x128.Idx → Ideal .f32) = m ((c : Thread nD τ).loc main_arg2) := by
  dsimp only [V1, W1, hostOps0]
  after_results_simp <;> rfl

theorem entry0_wr (c : Dev nD) : (V1 m ρ c main_arg3 : S128x128.Idx → Ideal .f32) = m ((c : Thread nD τ).loc main_arg3) := by
  dsimp only [V1, W1, hostOps0]
  after_results_simp <;> rfl

theorem entry0_bias (c : Dev nD) :
    (V1 m ρ c main_v25 : S1x128.Idx → Ideal .f32) = shapeCast S1x128 (m ((c : Thread nD τ).loc main_arg4)) Facts₀.shapeCasts_S128_S1x128 := by
  dsimp only [V1, W1, hostOps0]
  after_results_simp <;> rfl

/-! ## The first region's exit: its output array is the first layer, every other buffer as entered -/

theorem exit0_hidden (c : Dev nD) :
    (W2 m ρ c (Proc.devRef .tc main_v26) : S100000x128.Idx → Ideal .f32)
      = hiddenOf (m ((c : Thread nD τ).loc main_arg0)) (m ((c : Thread nD τ).loc main_arg1)) (m ((c : Thread nD τ).loc main_arg2))
          (m ((c : Thread nD τ).loc main_arg3)) (m ((c : Thread nD τ).loc main_arg4)) := by
  refine (W2_arr m ρ c 5).trans ((Hidden.final (V1 m ρ) c).trans ?_)
  unfold Hidden.layer hiddenOf
  rw [entry0_means m ρ c, entry0_own m ρ c, entry0_wl m ρ c, entry0_wr m ρ c, entry0_bias m ρ c]

theorem exit0_src (c : Dev nD) :
    (W2 m ρ c (Proc.devRef .tc main_v1) : S640000.Idx → Elt Ideal .i32) = srcRow (m ((c : Thread nD τ).loc main_arg1)) :=
  (W2_of_ne m ρ c main_v1 (by decide)).trans (by dsimp only [W1, hostOps0]; after_results_simp <;> rfl)

theorem exit0_dst (c : Dev nD) :
    (W2 m ρ c (Proc.devRef .tc main_v3) : S640000.Idx → Elt Ideal .i32) = dstRow (m ((c : Thread nD τ).loc main_arg1)) :=
  (W2_of_ne m ρ c main_v3 (by decide)).trans (by dsimp only [W1, hostOps0]; after_results_simp <;> rfl)

set_option maxHeartbeats 4000000 in
theorem exit0_recip (c : Dev nD) :
    (W2 m ρ c (Proc.devRef .tc main_v11) : S100000.Idx → Ideal .f32) = recip (dstRow (m ((c : Thread nD τ).loc main_arg1))) :=
  (W2_of_ne m ρ c main_v11 (by decide)).trans (by dsimp only [W1, hostOps0]; after_results_simp <;> rfl)

theorem exit0_w2l (c : Dev nD) : (W2 m ρ c (Proc.devRef .tc main_arg5) : S128x64.Idx → Ideal .f32) = m ((c : Thread nD τ).loc main_arg5) :=
  (W2_of_ne m ρ c main_arg5 (by decide)).trans (by dsimp only [W1, hostOps0]; after_results_simp <;> rfl)

theorem exit0_w2r (c : Dev nD) : (W2 m ρ c (Proc.devRef .tc main_arg6) : S128x64.Idx → Ideal .f32) = m ((c : Thread nD τ).loc main_arg6) :=
  (W2_of_ne m ρ c main_arg6 (by decide)).trans (by dsimp only [W1, hostOps0]; after_results_simp <;> rfl)

theorem exit0_b2 (c : Dev nD) : (W2 m ρ c (Proc.devRef .tc main_arg7) : S64.Idx → Ideal .f32) = m ((c : Thread nD τ).loc main_arg7) :=
  (W2_of_ne m ρ c main_arg7 (by decide)).trans (by dsimp only [W1, hostOps0]; after_results_simp <;> rfl)

/-! ## The second region's entry: after the second host operations -/

set_option maxHeartbeats 8000000 in
set_option maxRecDepth 8192 in
theorem entry1_means (c : Dev nD) :
    (V3 m ρ c main_v39 : S100000x128.Idx → Ideal .f32)
      = means (W2 m ρ c (Proc.devRef .tc main_v1)) (W2 m ρ c (Proc.devRef .tc main_v3)) (W2 m ρ c (Proc.devRef .tc main_v11))
          (W2 m ρ c (Proc.devRef .tc main_v26)) := by
  dsimp only [V3, W3, hostOps1]
  after_results_simp <;> rfl

theorem entry1_hidden (c : Dev nD) : (V3 m ρ c main_v26 : S100000x128.Idx → Ideal .f32) = W2 m ρ c (Proc.devRef .tc main_v26) := by
  dsimp only [V3, W3, hostOps1]
  after_results_simp <;> rfl

theorem entry1_wl (c : Dev nD) : (V3 m ρ c main_arg5 : S128x64.Idx → Ideal .f32) = W2 m ρ c (Proc.devRef .tc main_arg5) := by
  dsimp only [V3, W3, hostOps1]
  after_results_simp <;> rfl

theorem entry1_wr (c : Dev nD) : (V3 m ρ c main_arg6 : S128x64.Idx → Ideal .f32) = W2 m ρ c (Proc.devRef .tc main_arg6) := by
  dsimp only [V3, W3, hostOps1]
  after_results_simp <;> rfl

theorem entry1_bias (c : Dev nD) :
    (V3 m ρ c main_v40 : S1x64.Idx → Ideal .f32) = shapeCast S1x64 (W2 m ρ c (Proc.devRef .tc main_arg7)) Facts₀.shapeCasts_S64_S1x64 := by
  dsimp only [V3, W3, hostOps1]
  after_results_simp <;> rfl

/-! ## The result buffer at the last boundary -/

/-- The result buffer ends holding the two layers of the argument arrays. -/
theorem result_eq (c : Dev nD) :
    (W4 m ρ c (Proc.devRef .tc main_v41) : S100000x64.Idx → Ideal .f32)
      = resultOf (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (W4_arr m ρ c 5).trans ((Output.final (V3 m ρ) c).trans ?_)
  unfold Output.layer resultOf
  rw [entry1_means m ρ c, entry1_hidden m ρ c, entry1_wl m ρ c, entry1_wr m ρ c, entry1_bias m ρ c,
    exit0_src m ρ c, exit0_dst m ρ c, exit0_recip m ρ c, exit0_hidden m ρ c, exit0_w2l m ρ c, exit0_w2r m ρ c, exit0_b2 m ρ c]

end Cert.KernelIdeal.Whole

end
-- ==== Proof.RefValue.lean ====
/-
  The reference program's result as one function of its argument arrays.

  The reference is host operations only. Its result is the second layer's affine map — two `dot_general`s added and the
  bias broadcast along the nodes — of the neighbour means of the hidden features and of the hidden features, and the
  hidden features are the rectified first layer of the neighbour means of the input features and of the input
  features. Its neighbour means are the neighbour sums DIVIDED by the column of max (count, 1). Each layer's host
  spelling is the affine map read entry by entry, so the run's term is
      hidden = relu (lin (means x) x W1l W1r b1)      result = lin (means hidden) hidden W2l W2r b2 .
-/
import proofs.«141585_j71270687310162_2_alg».proof.Proof.Gen.ReferenceIdeal.Run
import proofs.«141585_j71270687310162_2_alg».proof.Proof.Sage

noncomputable section

namespace Cert.ReferenceIdeal.RefValue

open Cert.ReferenceIdeal Cert.ReferenceIdeal.Gen Cert.ReferenceIdeal.Value
open Idealize.ShloMosaic Idealize.ShloMosaic.TcCoe Idealize.SL.Sem Cert.Sage Cert.Mlp

/-- The edges' source nodes: row 0 of the edge list. -/
def srcRow (e : (⟨S2x640000, .i32⟩ : BufTy).Contents (Elt Ideal)) : (⟨S640000, .i32⟩ : BufTy).Contents (Elt Ideal) :=
  shapeCast S640000 (extractStridedSlice S1x640000 ![0, 0] e Facts₀.slices_S2x640000_S1x640000_0_0) Facts₀.shapeCasts_S1x640000_S640000

/-- The edges' destination nodes: row 1 of the edge list. -/
def dstRow (e : (⟨S2x640000, .i32⟩ : BufTy).Contents (Elt Ideal)) : (⟨S640000, .i32⟩ : BufTy).Contents (Elt Ideal) :=
  shapeCast S640000 (extractStridedSlice S1x640000 ![1, 0] e Facts₀.slices_S2x640000_S1x640000_1_0) Facts₀.shapeCasts_S1x640000_S640000

/-- Each node's in-degree: a one scattered to every edge's destination. -/
def count (dst : (⟨S640000, .i32⟩ : BufTy).Contents (Elt Ideal)) : FVec Ideal S100000 .f32 :=
  Host.scatterAdd scatter_S100000_S640000x1_S640000_n_0_0_1
    (broadcastInDim S100000 ![] Facts₀.bcast_S_S100000 (constant (F := Ideal) S_ .f32 0x00000000#32))
    (broadcastInDim S640000x1 ![0] Facts₀.bcast_S640000_S640000x1_0 dst)
    (broadcastInDim S640000 ![] Facts₀.bcast_S_S640000 (constant (F := Ideal) S_ .f32 0x3F800000#32))

/-- The sum over each node's incoming edges of the source node's feature row (a negative source index wrapped around). -/
def sums (src dst : (⟨S640000, .i32⟩ : BufTy).Contents (Elt Ideal)) (h : FVec Ideal S100000x128 .f32) : FVec Ideal S100000x128 .f32 :=
  Host.scatterAdd scatter_S100000x128_S640000x1_S640000x128_1_0_0_1
    (broadcastInDim S100000x128 ![] Facts₀.bcast_S_S100000x128 (constant (F := Ideal) S_ .f32 0x00000000#32))
    (broadcastInDim S640000x1 ![0] Facts₀.bcast_S640000_S640000x1_0 dst)
    (Host.gather gather_S100000x128_S640000x1_S640000x128_1_0_n_n_0_1_1128 h
      (broadcastInDim S640000x1 ![0] Facts₀.bcast_S640000_S640000x1_0
        (select (cmpi .slt src (broadcastInDim S640000 ![] Facts₀.bcast_S_S640000 (constantI S_ 32 0#32)))
          (addi src (broadcastInDim S640000 ![] Facts₀.bcast_S_S640000 (constantI S_ 32 100000#32))) src)))

/-- The neighbour means as the reference computes them: the sums divided by the column of max (count, 1). -/
def means (src dst : (⟨S640000, .i32⟩ : BufTy).Contents (Elt Ideal)) (h : FVec Ideal S100000x128 .f32) : FVec Ideal S100000x128 .f32 :=
  Host.divf (sums src dst h) (broadcastInDim S100000x128 ![0, 1] Facts₀.bcast_S100000x1_S100000x128_0_1
    (broadcastInDim S100000x1 ![0] Facts₀.bcast_S100000_S100000x1_0
      (maximumf (count dst) (broadcastInDim S100000 ![] Facts₀.bcast_S_S100000 (constant (F := Ideal) S_ .f32 0x3F800000#32)))))

/-- The first layer's output over the argument arrays. -/
def hiddenOf (x : FVec Ideal S100000x128 .f32) (e : (⟨S2x640000, .i32⟩ : BufTy).Contents (Elt Ideal))
    (w1l w1r : FVec Ideal S128x128 .f32) (b1 : FVec Ideal S128 .f32) : FVec Ideal S100000x128 .f32 :=
  relu (lin (N := 100000) (K := 128) (J := 128) (means (srcRow e) (dstRow e) x) x w1l w1r
    (broadcastInDim S1x128 ![1] Facts₀.bcast_S128_S1x128_1 b1))

/-- The program's result over the argument arrays. -/
def resultOf (x : FVec Ideal S100000x128 .f32) (e : (⟨S2x640000, .i32⟩ : BufTy).Contents (Elt Ideal))
    (w1l w1r : FVec Ideal S128x128 .f32) (b1 : FVec Ideal S128 .f32) (w2l w2r : FVec Ideal S128x64 .f32) (b2 : FVec Ideal S64 .f32) :
    FVec Ideal S100000x64 .f32 :=
  lin (N := 100000) (K := 128) (J := 64) (means (srcRow e) (dstRow e) (hiddenOf x e w1l w1r b1)) (hiddenOf x e w1l w1r b1)
    w2l w2r (broadcastInDim S1x64 ![1] Facts₀.bcast_S64_S1x64_1 b2)

set_option maxRecDepth 8192 in
set_option maxHeartbeats 4000000 in
/-- The run's term for the result buffer is the two layers of the argument arrays: each layer's two `dot_general`s,
    bias broadcast and (in the first) maximum with a broadcast zero are the affine map and the rectifier. -/
theorem res_eq (m : (ℓ : Loc nD τ sig) → Buf (Elt Ideal) ℓ) (c : Dev nD) :
    res_out0 (F := Ideal) m c
      = resultOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold resultOf hiddenOf
  rw [← linHost_eq Facts₀.dot_S100000x128_S128x64_S100000x64_1_0_0_1_n_n_wf Facts₀.bcast_S1x64_S100000x64_0_1,
    ← reluHost_eq Facts₀.bcast_S_S100000x128,
    ← linHost_eq Facts₀.dot_S100000x128_S128x128_S100000x128_1_0_0_1_n_n_wf Facts₀.bcast_S1x128_S100000x128_0_1]
  rfl

end Cert.ReferenceIdeal.RefValue

end
-- ==== Proof.lean ====
/-
  A two-layer graph convolution with mean aggregation over 100000 nodes and 640000 edges: the tiled program with two
  row-tiled matrix kernels against the plain array program.

  Both programs compute, per layer, the affine map  means(h) · Wl + h · Wr + b  of the neighbour means of the node
  features h and of h itself — the first layer rectified, the second not — where the neighbour sum of h is a
  gather of the edges' source rows scattered onto their destinations, and the mean divides it by max (in-degree, 1).
  They differ in two ways. The tiled program computes the affine map block by block, 2000 nodes at a time, with the
  operands narrowed to bf16 first; at the ideal values narrowing is the identity and each block is a restriction of
  the whole-array map, since the map at a node reads only that node's row. And it forms the mean as the sum TIMES the
  quotient 1 / max (in-degree, 1), where the array program DIVIDES the sum by max (in-degree, 1): a maximum with one
  is never zero, and off zero a quotient on the extended reals is the product with the inverse, so the two means are
  one array whatever the sums are — no finiteness of the inputs is used. The idealization rewrote nothing.
-/
import proofs.«141585_j71270687310162_2_alg».proof.Defs
import proofs.«141585_j71270687310162_2_alg».proof.Proof.Gen.Kernel
import proofs.«141585_j71270687310162_2_alg».proof.Proof.Gen.Kernel.Frame
import proofs.«141585_j71270687310162_2_alg».proof.Proof.Gen.KernelIdeal
import proofs.«141585_j71270687310162_2_alg».proof.Proof.Gen.KernelIdeal.Frame
import proofs.«141585_j71270687310162_2_alg».proof.Proof.Gen.ReferenceIdeal
import proofs.«141585_j71270687310162_2_alg».proof.Proof.Gen.Pre_finite_inputs
import proofs.«141585_j71270687310162_2_alg».proof.Proof.KernelRun
import proofs.«141585_j71270687310162_2_alg».proof.Proof.KernelValue
import proofs.«141585_j71270687310162_2_alg».proof.Proof.RefValue
import Idealize.ShloMosaic.Adequacy
import Idealize.ShloMosaic.Init

noncomputable section

namespace Cert.Proof

open Idealize.ShloMosaic Idealize.ShloMosaic.TcCoe Idealize.SL.Sem

/-! ## The two programs' results are one function of the arguments -/

/-- The sums times the reciprocals of max (in-degree, 1) are the sums divided by max (in-degree, 1). -/
theorem means_eq (e : (⟨Cert.KernelIdeal.S2x640000, .i32⟩ : BufTy).Contents (Elt Ideal)) (h : FVec Ideal Cert.KernelIdeal.S100000x128 .f32) :
    Cert.KernelIdeal.Whole.means (Cert.KernelIdeal.Whole.srcRow e) (Cert.KernelIdeal.Whole.dstRow e)
        (Cert.KernelIdeal.Whole.recip (Cert.KernelIdeal.Whole.dstRow e)) h
      = Cert.ReferenceIdeal.RefValue.means (Cert.ReferenceIdeal.RefValue.srcRow e) (Cert.ReferenceIdeal.RefValue.dstRow e) h := by
  unfold Cert.KernelIdeal.Whole.means Cert.KernelIdeal.Whole.recip
  exact (Cert.Sage.mean_eq (N := 100000) (K := 128) _ _ _ _ _).trans rfl

/-- The first layer's output is the same array in both programs: the means agree, and a bias reshaped to one row is the
    bias broadcast along a new unit axis. -/
theorem hidden_eq (x : FVec Ideal Cert.KernelIdeal.S100000x128 .f32) (e : (⟨Cert.KernelIdeal.S2x640000, .i32⟩ : BufTy).Contents (Elt Ideal))
    (w1l w1r : FVec Ideal Cert.KernelIdeal.S128x128 .f32) (b1 : FVec Ideal Cert.KernelIdeal.S128 .f32) :
    Cert.KernelIdeal.Whole.hiddenOf x e w1l w1r b1 = Cert.ReferenceIdeal.RefValue.hiddenOf x e w1l w1r b1 := by
  unfold Cert.KernelIdeal.Whole.hiddenOf Cert.ReferenceIdeal.RefValue.hiddenOf
  rw [means_eq, Cert.Mlp.rowCast_eq_bcast b1 _ Cert.ReferenceIdeal.Facts₀.bcast_S128_S1x128_1] <;> rfl

/-- The result is the same array in both programs. -/
theorem result_eq (x : FVec Ideal Cert.KernelIdeal.S100000x128 .f32) (e : (⟨Cert.KernelIdeal.S2x640000, .i32⟩ : BufTy).Contents (Elt Ideal))
    (w1l w1r : FVec Ideal Cert.KernelIdeal.S128x128 .f32) (b1 : FVec Ideal Cert.KernelIdeal.S128 .f32)
    (w2l w2r : FVec Ideal Cert.KernelIdeal.S128x64 .f32) (b2 : FVec Ideal Cert.KernelIdeal.S64 .f32) :
    Cert.KernelIdeal.Whole.resultOf x e w1l w1r b1 w2l w2r b2 = Cert.ReferenceIdeal.RefValue.resultOf x e w1l w1r b1 w2l w2r b2 := by
  unfold Cert.KernelIdeal.Whole.resultOf Cert.ReferenceIdeal.RefValue.resultOf
  rw [hidden_eq, means_eq, Cert.Mlp.rowCast_eq_bcast b2 _ Cert.ReferenceIdeal.Facts₀.bcast_S64_S1x64_1] <;> rfl

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the two layers of the arguments in their result
    buffers: the tiled program by its run read through the boundaries, the array program by its run's term, and the two
    spellings are one array. -/
theorem algebraic : Cert.algebraic_KernelIdeal_ReferenceIdeal := by
  intro m ρ m' ρ' _ hagree
  refine ⟨fun c => Cert.KernelIdeal.Whole.resultOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Whole.result_eq m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7⟩ := hagree c
    refine (Cert.ReferenceIdeal.RefValue.res_eq m' c).trans ?_
    rw [a0, a1, a2, a3, a4, a5, a6, a7]
    exact (result_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
